-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S256x128 : Shape := ⟨2, ![256, 128]⟩
abbrev S128x1 : Shape := ⟨2, ![128, 1]⟩
abbrev S640000 : Shape := ⟨1, ![640000]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : FVec F S20000x128 .f32) (main_arg1 : FVec F S256x128 .f32) (main_arg2 : FVec F S128x1 .f32) (main_arg3 : IVec S640000 32) (main_arg4 : IVec S640000 32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128x1 .f32 := Host.absf main_arg2
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  main_v13
-- ==== Kernel.lean ====
abbrev S20000x128 : Shape := ⟨2, ![20000, 128]⟩
abbrev S256x128 : Shape := ⟨2, ![256, 128]⟩
abbrev S128x1 : Shape := ⟨2, ![128, 1]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S128x128 : Shape := ⟨2, ![128, 128]⟩
abbrev S8000x128 : Shape := ⟨2, ![8000, 128]⟩
abbrev S8000x1 : Shape := ⟨2, ![8000, 1]⟩
abbrev S20000x1 : Shape := ⟨2, ![20000, 1]⟩

abbrev nBuf : Space → Nat
  | .hbm => 51
  | .vmem => 9
  | .smem => 0
  | _ => 0

abbrev bufTy : (tb : Table) → Fin (tcTables nBuf tb) → BufTy
  | .hbm, ⟨0, _⟩ => ⟨S20000x128, .f32⟩
  | .hbm, ⟨1, _⟩ => ⟨S256x128, .f32⟩
  | .hbm, ⟨2, _⟩ => ⟨S128x1, .f32⟩
  | .hbm, ⟨3, _⟩ => ⟨S640000, .i32⟩
  | .hbm, ⟨4, _⟩ => ⟨S640000, .i32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S128x128, .f32⟩
  | .hbm, ⟨24, _⟩ => ⟨S128x128, .f32⟩
  | .hbm, ⟨25, _⟩ => ⟨S640000x128, .bf16⟩
  | .hbm, ⟨26, _⟩ => ⟨S640000x128, .bf16⟩
  | .hbm, ⟨27, _⟩ => ⟨S128x128, .bf16⟩
  | .hbm, ⟨28, _⟩ => ⟨S128x128, .bf16⟩
  | .hbm, ⟨29, _⟩ => ⟨S128x1, .bf16⟩
  | .hbm, ⟨30, _⟩ => ⟨S640000x1, .f32⟩
  | .hbm, ⟨31, _⟩ => ⟨S_, .f32⟩
  | .hbm, ⟨32, _⟩ => ⟨S20000x1, .f32⟩
  | .hbm, ⟨33, _⟩ => ⟨S640000x1, .i32⟩
  | .hbm, ⟨34, _⟩ => ⟨S20000x1, .f32⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S640000x1, .f32⟩
  | .hbm, ⟨44, _⟩ => ⟨S640000x1, .f32⟩
  | .hbm, ⟨45, _⟩ => ⟨S640000x128, .f32⟩
  | .hbm, ⟨46, _⟩ => ⟨S640000x128, .f32⟩
  | .hbm, ⟨47, _⟩ => ⟨S_, .f32⟩
  | .hbm, ⟨48, _⟩ => ⟨S20000x128, .f32⟩
  | .hbm, ⟨49, _⟩ => ⟨S640000x1, .i32⟩
  | .hbm, ⟨50, _⟩ => ⟨S20000x128, .f32⟩
  | .local _ .vmem, ⟨0, _⟩ => ⟨S8000x128, .bf16⟩
  | .local _ .vmem, ⟨1, _⟩ => ⟨S8000x128, .bf16⟩
  | .local _ .vmem, ⟨2, _⟩ => ⟨S8000x128, .bf16⟩
  | .local _ .vmem, ⟨3, _⟩ => ⟨S8000x128, .bf16⟩
  | .local _ .vmem, ⟨4, _⟩ => ⟨S128x128, .bf16⟩
  | .local _ .vmem, ⟨5, _⟩ => ⟨S128x128, .bf16⟩
  | .local _ .vmem, ⟨6, _⟩ => ⟨S128x1, .bf16⟩
  | .local _ .vmem, ⟨7, _⟩ => ⟨S8000x1, .f32⟩
  | .local _ .vmem, ⟨8, _⟩ => ⟨S8000x1, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  slices_S256x128_S128x128_0_0 : S256x128.Slices ![0, 0] S128x128
  slices_S256x128_S128x128_128_0 : S256x128.Slices ![128, 0] S128x128
  bitsLt_bf16_f32 : FTy.bits .bf16 < FTy.bits .f32
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S8000x1_S8000x1_0_0 : ∀ a, (![0, 0] : Fin 2 → Nat) a + S8000x1.size a ≤ S8000x1.size a
  h_S8000x1 : 0 < S8000x1.numel
  bcast_S_S20000x1 : S_.BroadcastsInDim S20000x1 (![] : Fin 0 → Fin S20000x1.rank)
  bcast_S640000x1_S640000x128_0_1 : S640000x1.BroadcastsInDim S640000x128 (![0, 1] : Fin 2 → Fin S640000x128.rank)
  bcast_S_S20000x128 : S_.BroadcastsInDim S20000x128 (![] : Fin 0 → Fin S20000x128.rank)
  gather_S20000x128_S640000x1_S640000x128_1_0_n_n_0_1_1128_wf : GatherDims.WF S20000x128 S640000x1 S640000x128 [1] [0] [] [0] [] 1 ![1, 128]
  dot_S8000x128_S128x128_S8000x128_1_0_0_1_n_n_wf : DotDims.WF S8000x128 S128x128 S8000x128 [1] [0] [0] [1] [] []
  dot_S8000x128_S128x1_S8000x1_1_0_0_1_n_n_wf : DotDims.WF S8000x128 S128x1 S8000x1 [1] [0] [0] [1] [] []
  scatter_S20000x1_S640000x1_S640000x1_1_0_0_1_wf : ScatterDims.WF S20000x1 S640000x1 S640000x1 [1] [0] [0] 1
  gather_S20000x1_S640000x1_S640000x1_1_0_n_n_0_1_11_wf : GatherDims.WF S20000x1 S640000x1 S640000x1 [1] [0] [] [0] [] 1 ![1, 1]
  scatter_S20000x128_S640000x1_S640000x128_1_0_0_1_wf : ScatterDims.WF S20000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S640000x128.size a
  hwx0_0 : ∀ i : grid0.Coords, EltTy.bits .bf16 = 32 ∨ (Rect.block (s := S640000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S640000x128.size a
  hwx0_1 : ∀ i : grid0.Coords, EltTy.bits .bf16 = 32 ∨ (Rect.block (s := S640000x128) S8000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .bf16 = 32 ∨ (Rect.block (s := S128x1) S128x1.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x1.size a ≤ S640000x1.size a
  hwx0_5 : ∀ i : grid0.Coords, EltTy.bits .f32 = 32 ∨ (Rect.block (s := S640000x1) S8000x1.size (cc0_transform_5 i) (hinb0_5 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf
def scatter_S20000x1_S640000x1_S640000x1_1_0_0_1 : ScatterDims S20000x1 S640000x1 S640000x1 where
  updateWindowDims := [1]
  insertedWindowDims := [0]
  scatterDimsToOperandDims := [0]
  indexVectorDim := 1
  wf := scatter_S20000x1_S640000x1_S640000x1_1_0_0_1_wf
def gather_S20000x1_S640000x1_S640000x1_1_0_n_n_0_1_11 : GatherDims S20000x1 S640000x1 S640000x1 where
  offsetDims := [1]
  collapsedSliceDims := [0]
  operandBatchingDims := []
  startIndicesBatchingDims := []
  startIndexMap := [0]
  indexVectorDim := 1
  sliceSizes := ![1, 1]
  wf := gather_S20000x1_S640000x1_S640000x1_1_0_n_n_0_1_11_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf

abbrev win0_0 : Pipeline.Window sig grid0 :=
  Pipeline.Window.ofSpec (Memref.whole main_v16) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S8000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S20000x128 : Shape := ⟨2, ![20000, 128]⟩
abbrev S256x128 : Shape := ⟨2, ![256, 128]⟩
abbrev S128x1 : Shape := ⟨2, ![128, 1]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x256 : Shape := ⟨2, ![640000, 256]⟩
abbrev S20000x1 : Shape := ⟨2, ![20000, 1]⟩

abbrev nBuf : Space → Nat
  | .hbm => 55
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S256x128, .f32⟩
  | .hbm, ⟨2, _⟩ => ⟨S128x1, .f32⟩
  | .hbm, ⟨3, _⟩ => ⟨S640000, .i32⟩
  | .hbm, ⟨4, _⟩ => ⟨S640000, .i32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S640000x256, .f32⟩
  | .hbm, ⟨24, _⟩ => ⟨S640000x128, .f32⟩
  | .hbm, ⟨25, _⟩ => ⟨S_, .f32⟩
  | .hbm, ⟨26, _⟩ => ⟨S_, .f32⟩
  | .hbm, ⟨27, _⟩ => ⟨S640000x128, .f32⟩
  | .hbm, ⟨28, _⟩ => ⟨S640000x128, .i1⟩
  | .hbm, ⟨29, _⟩ => ⟨S_, .f32⟩
  | .hbm, ⟨30, _⟩ => ⟨S640000x128, .f32⟩
  | .hbm, ⟨31, _⟩ => ⟨S640000x128, .f32⟩
  | .hbm, ⟨32, _⟩ => ⟨S640000x128, .f32⟩
  | .hbm, ⟨33, _⟩ => ⟨S640000x1, .f32⟩
  | .hbm, ⟨34, _⟩ => ⟨S640000x1, .f32⟩
  | .hbm, ⟨35, _⟩ => ⟨S_, .f32⟩
  | .hbm, ⟨36, _⟩ => ⟨S20000x1, .f32⟩
  | .hbm, ⟨37, _⟩ => ⟨S640000x1, .i32⟩
  | .hbm, ⟨38, _⟩ => ⟨S20000x1, .f32⟩
  | .hbm, ⟨39, _⟩ => ⟨S_, .i32⟩
  | .hbm, ⟨40, _⟩ => ⟨S640000, .i32⟩
  | .hbm, ⟨41, _⟩ => ⟨S640000, .i1⟩
  | .hbm, ⟨42, _⟩ => ⟨S_, .i32⟩
  | .hbm, ⟨43, _⟩ => ⟨S640000, .i32⟩
  | .hbm, ⟨44, _⟩ => ⟨S640000, .i32⟩
  | .hbm, ⟨45, _⟩ => ⟨S640000, .i32⟩
  | .hbm, ⟨46, _⟩ => ⟨S640000x1, .i32⟩
  | .hbm, ⟨47, _⟩ => ⟨S640000x1, .f32⟩
  | .hbm, ⟨48, _⟩ => ⟨S640000x1, .f32⟩
  | .hbm, ⟨49, _⟩ => ⟨S640000x128, .f32⟩
  | .hbm, ⟨50, _⟩ => ⟨S640000x128, .f32⟩
  | .hbm, ⟨51, _⟩ => ⟨S_, .f32⟩
  | .hbm, ⟨52, _⟩ => ⟨S20000x128, .f32⟩
  | .hbm, ⟨53, _⟩ => ⟨S640000x1, .i32⟩
  | .hbm, ⟨54, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  bcast_S_S640000x128 : S_.BroadcastsInDim S640000x128 (![] : Fin 0 → Fin S640000x128.rank)
  bcast_S_S20000x1 : S_.BroadcastsInDim S20000x1 (![] : Fin 0 → Fin S20000x1.rank)
  bcast_S640000x1_S640000x128_0_1 : S640000x1.BroadcastsInDim S640000x128 (![0, 1] : Fin 2 → Fin S640000x128.rank)
  bcast_S_S20000x128 : S_.BroadcastsInDim S20000x128 (![] : Fin 0 → Fin S20000x128.rank)
  gather_S20000x128_S640000x1_S640000x128_1_0_n_n_0_1_1128_wf : GatherDims.WF S20000x128 S640000x1 S640000x128 [1] [0] [] [0] [] 1 ![1, 128]
  dot_S640000x256_S256x128_S640000x128_1_0_0_1_n_n_wf : DotDims.WF S640000x256 S256x128 S640000x128 [1] [0] [0] [1] [] []
  dot_S640000x128_S128x1_S640000x1_1_0_0_1_n_n_wf : DotDims.WF S640000x128 S128x1 S640000x1 [1] [0] [0] [1] [] []
  scatter_S20000x1_S640000x1_S640000x1_1_0_0_1_wf : ScatterDims.WF S20000x1 S640000x1 S640000x1 [1] [0] [0] 1
  gather_S20000x1_S640000x1_S640000x1_1_0_n_n_0_1_11_wf : GatherDims.WF S20000x1 S640000x1 S640000x1 [1] [0] [] [0] [] 1 ![1, 1]
  scatter_S20000x128_S640000x1_S640000x128_1_0_0_1_wf : ScatterDims.WF S20000x128 S640000x1 S640000x128 [1] [0] [0] 1

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def scatter_S20000x1_S640000x1_S640000x1_1_0_0_1 : ScatterDims S20000x1 S640000x1 S640000x1 where
  updateWindowDims := [1]
  insertedWindowDims := [0]
  scatterDimsToOperandDims := [0]
  indexVectorDim := 1
  wf := scatter_S20000x1_S640000x1_S640000x1_1_0_0_1_wf
def gather_S20000x1_S640000x1_S640000x1_1_0_n_n_0_1_11 : GatherDims S20000x1 S640000x1 S640000x1 where
  offsetDims := [1]
  collapsedSliceDims := [0]
  operandBatchingDims := []
  startIndicesBatchingDims := []
  startIndexMap := [0]
  indexVectorDim := 1
  sliceSizes := ![1, 1]
  wf := gather_S20000x1_S640000x1_S640000x1_1_0_n_n_0_1_11_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf

class Facts : Prop extends Facts₀ where

variable [Facts]
-- ==== Proof.KerDefs.lean ====
/-
  The kernel program's host operations, read as functions.

  Before the region the program gathers the source and target rows, cuts the weight matrix into its upper and lower
  halves and changes the five operands to the narrower float format (the identity on the extended reals).  After the
  region it normalises the scores over the edges sharing a source node, scales each edge's source row and sums the
  scaled rows into their target nodes.  Each stretch is a fold of pure operations over whatever the buffers hold, so
  it is read here at the buffers that matter, for any contents.
-/
import proofs.«166324_j46411416601106_1_alg».proof.Proof.Gen.KernelIdeal.Launch
import Idealize.ShloMosaic.Lib.StableHlo.Run
import Idealize.ShloMosaic.PureOps.Ideal

noncomputable section

namespace Cert.KernelIdeal.KerDefs

open Cert.KernelIdeal Cert.KernelIdeal.Gen Idealize.ShloMosaic Idealize.ShloMosaic.StableHlo Idealize.SL.Sem

/-- An index array as a column, a negative entry first moved up by the number of nodes (jnp's wrap-around). -/
def wrapped (s : IVec S640000 32) : IVec S640000x1 32 :=
  broadcastInDim S640000x1 ![0] bcast_S640000_S640000x1_0
    (select (cmpi .slt s (broadcastInDim S640000 ![] bcast_S_S640000 (constantI S_ 32 0#32)))
      (addi s (broadcastInDim S640000 ![] bcast_S_S640000 (constantI S_ 32 20000#32))) s)

/-- The rows of the node features that an index array names. -/
def rows (h : FVec Ideal S20000x128 .f32) (s : IVec S640000 32) : FVec Ideal S640000x128 .f32 :=
  Host.gather gather_S20000x128_S640000x1_S640000x128_1_0_n_n_0_1_1128 h (wrapped s)

/-- From the scores to the result: normalise over the edges of each source node, scale the source rows, sum into the
    target nodes. -/
def combine (s d : IVec S640000 32) (hi : FVec Ideal S640000x128 .f32) (ex : FVec Ideal S640000x1 .f32) :
    FVec Ideal S20000x128 .f32 :=
  Host.scatterAdd scatter_S20000x128_S640000x1_S640000x128_1_0_0_1
    (broadcastInDim S20000x128 ![] bcast_S_S20000x128 (constant (F := Ideal) S_ .f32 0x00000000#32))
    (broadcastInDim S640000x1 ![0] bcast_S640000_S640000x1_0 d)
    (mulf hi (broadcastInDim S640000x128 ![0, 1] bcast_S640000x1_S640000x128_0_1
      (Host.divf ex (Host.gather gather_S20000x1_S640000x1_S640000x1_1_0_n_n_0_1_11
        (Host.scatterAdd scatter_S20000x1_S640000x1_S640000x1_1_0_0_1
          (broadcastInDim S20000x1 ![] bcast_S_S20000x1 (constant (F := Ideal) S_ .f32 0x00000000#32))
          (broadcastInDim S640000x1 ![0] bcast_S640000_S640000x1_0 s) ex) (wrapped s)))))

section Reads

variable (X : Valuation τ sig (Elt Ideal))

attribute [local irreducible] Host.gather Host.scatterAdd

set_option maxRecDepth 8192 in
/-- After the operations before the region the first row operand holds the source rows (in the narrower format). -/
theorem pre_v16 : after (hostOps0 (F := Ideal)) X (Proc.devRef .tc main_v16)
    = (truncf .bf16 (rows (X (Proc.devRef .tc main_arg0)) (X (Proc.devRef .tc main_arg3))) bitsLt_bf16_f32 : FVec Ideal S640000x128 .bf16) := by
  after_results_simp
  rfl

set_option maxRecDepth 8192 in
/-- The second row operand holds the target rows. -/
theorem pre_v17 : after (hostOps0 (F := Ideal)) X (Proc.devRef .tc main_v17)
    = (truncf .bf16 (rows (X (Proc.devRef .tc main_arg0)) (X (Proc.devRef .tc main_arg4))) bitsLt_bf16_f32 : FVec Ideal S640000x128 .bf16) := by
  after_results_simp
  rfl

set_option maxRecDepth 8192 in
/-- The third operand holds the upper half of the weight matrix. -/
theorem pre_v18 : after (hostOps0 (F := Ideal)) X (Proc.devRef .tc main_v18)
    = (truncf .bf16 (extractStridedSlice S128x128 ![0, 0] (X (Proc.devRef .tc main_arg1) : FVec Ideal S256x128 .f32) slices_S256x128_S128x128_0_0) bitsLt_bf16_f32 : FVec Ideal S128x128 .bf16) := by
  after_results_simp

set_option maxRecDepth 8192 in
/-- The fourth operand holds the lower half of the weight matrix. -/
theorem pre_v19 : after (hostOps0 (F := Ideal)) X (Proc.devRef .tc main_v19)
    = (truncf .bf16 (extractStridedSlice S128x128 ![128, 0] (X (Proc.devRef .tc main_arg1) : FVec Ideal S256x128 .f32) slices_S256x128_S128x128_128_0) bitsLt_bf16_f32 : FVec Ideal S128x128 .bf16) := by
  after_results_simp

set_option maxRecDepth 8192 in
/-- The fifth operand holds the projection column. -/
theorem pre_v20 : after (hostOps0 (F := Ideal)) X (Proc.devRef .tc main_v20)
    = (truncf .bf16 (X (Proc.devRef .tc main_arg2) : FVec Ideal S128x1 .f32) bitsLt_bf16_f32 : FVec Ideal S128x1 .bf16) := by
  after_results_simp

set_option maxRecDepth 8192 in
/-- The source rows themselves stay in their buffer for the operations after the region. -/
theorem pre_v6 : after (hostOps0 (F := Ideal)) X (Proc.devRef .tc main_v6)
    = rows (X (Proc.devRef .tc main_arg0)) (X (Proc.devRef .tc main_arg3)) := by
  after_results_simp
  rfl

set_option maxRecDepth 8192 in
/-- The operations after the region, read at the result buffer: `combine` of the two index arrays, the source rows and
    the region's output array, whatever those buffers hold. -/
theorem tail_v37 : after (hostOps1 (F := Ideal)) X (Proc.devRef .tc main_v37)
    = combine (X (Proc.devRef .tc main_arg3)) (X (Proc.devRef .tc main_arg4)) (X (Proc.devRef .tc main_v6)) (X (Proc.devRef .tc main_v21)) := by
  after_results_simp
  rfl

end Reads

end Cert.KernelIdeal.KerDefs

end
-- ==== Proof.Score.lean ====
/-
  The attention score of one edge, as a formula on the extended reals.

  For an edge with source row `hi` and target row `hj` (128 numbers each), a weight matrix whose upper half is
  `w1` and lower half `w2` (128 × 128 each) and a projection vector `a`, the score is

      exp ( ∑_c  lrelu ( ∑_k hi k · w1 k c  +  ∑_k hj k · w2 k c ) · a c ),

  where `lrelu x` is `x` for `x ≥ 0` and `0.2 · x` otherwise (0.2 the f32 number of word 0x3E4CCCCD).  A product of the
  row `[hi | hj]` of length 256 with the whole matrix is the same number: a sum over 256 indices is the sum over its
  first 128 plus the sum over its last 128, in any commutative monoid — no finiteness is used.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- Leaky relu with slope 0.2: `x` where `x ≥ 0`, the slope times `x` elsewhere. -/
def lrelu (x : Ideal .f32) : Ideal .f32 :=
  Scalar.select (FloatOps.cmpf .oge x (Ideal.ofBits .f32 0x00000000#32)) x (Ideal.ofBits .f32 0x3E4CCCCD#32 * x)

/-- One edge's score from its two rows, the two halves of the weight matrix and the projection vector. -/
def scoreAt (hi hj : Fin 128 → Ideal .f32) (w1 w2 : Fin 128 → Fin 128 → Ideal .f32) (a : Fin 128 → Ideal .f32) : Ideal .f32 :=
  Ideal.exp (∑ c : Fin 128, lrelu ((∑ k : Fin 128, hi k * w1 k c) + ∑ k : Fin 128, hj k * w2 k c) * a c)

/-- Every edge's score, as a column: edge `e` reads row `e` of the two row arrays. -/
def scoreArr (hi hj : (⟨2, ![640000, 128]⟩ : Shape).Idx → Ideal .f32) (w : (⟨2, ![256, 128]⟩ : Shape).Idx → Ideal .f32)
    (a : (⟨2, ![128, 1]⟩ : Shape).Idx → Ideal .f32) : (⟨2, ![640000, 1]⟩ : Shape).Idx → Ideal .f32 := fun i =>
  scoreAt (fun k => hi (ix2 (⟨(i 0).val, idx2_lt0 i⟩ : Fin 640000) k)) (fun k => hj (ix2 (⟨(i 0).val, idx2_lt0 i⟩ : Fin 640000) k))
    (fun k c => w (ix2 (⟨k.val, by omega⟩ : Fin 256) c)) (fun k c => w (ix2 (⟨128 + k.val, by omega⟩ : Fin 256) c))
    (fun c => a (ix2 c (⟨(i 1).val, idx2_lt1 i⟩ : Fin 1)))

theorem scoreArr_apply (hi hj : (⟨2, ![640000, 128]⟩ : Shape).Idx → Ideal .f32) (w : (⟨2, ![256, 128]⟩ : Shape).Idx → Ideal .f32)
    (a : (⟨2, ![128, 1]⟩ : Shape).Idx → Ideal .f32) (e : Fin 640000) (u : Fin 1) :
    scoreArr hi hj w a (ix2 e u) = scoreAt (fun k => hi (ix2 e k)) (fun k => hj (ix2 e k))
      (fun k c => w (ix2 (⟨k.val, by omega⟩ : Fin 256) c)) (fun k c => w (ix2 (⟨128 + k.val, by omega⟩ : Fin 256) c))
      (fun c => a (ix2 c u)) := rfl

/-- A sum over 256 indices is the sum over the first 128 plus the sum over the last 128. -/
theorem sum_halves (f : Fin 256 → Ideal .f32) :
    ∑ k : Fin 256, f k = (∑ k : Fin 128, f ⟨k.val, by omega⟩) + ∑ k : Fin 128, f ⟨128 + k.val, by omega⟩ :=
  Fin.sum_univ_add (a := 128) (b := 128) f

end Cert.Attn

end
-- ==== Proof.LibDotSum.lean ====
/-
  A sum over a one-axis contraction index, written as a sum over the axis's coordinates.

  A matrix product read at an output index is a sum over the contraction index of the dot's dimension record, a
  one-coordinate index when one axis is contracted.  Re-indexing through the bijection with `Fin n` turns it into
  the textbook sum `∑ i : Fin n, L i · R i`, once each operand is known at the operand indices the record builds.
-/
import Idealize.ShloMosaic.PureOps.Ideal
import Idealize.ShloMosaic.PureOps.Ideal.Laws
import Idealize.ShloMosaic.Lib.ValueIdx

noncomputable section

namespace Cert.LibDotSum

open Idealize.ShloMosaic Idealize.ShloMosaic.ValueIdx

/-- The sum over a one-axis contraction index of the products of two operands is the sum over `Fin n` of the
    products of their readings `L`, `R` along that axis. -/
theorem sum_contr_eq {sl sr so : Shape} (D : DotDims sl sr so) (n : Nat) (hr : D.contr.rank = 1)
    (hs : D.contr.size ⟨0, by omega⟩ = n) (f : sl.Idx → EReal) (g : sr.Idx → EReal) (j : so.Idx)
    (L R : Fin n → EReal)
    (hl : ∀ i : Fin n, f (D.lhsIdx j ((contrEquiv1 D n hr hs).symm i)) = L i)
    (hg : ∀ i : Fin n, g (D.rhsIdx j ((contrEquiv1 D n hr hs).symm i)) = R i) :
    ∑ k : D.contr.Idx, f (D.lhsIdx j k) * g (D.rhsIdx j k) = ∑ i : Fin n, L i * R i := by
  rw [← Equiv.sum_comp (contrEquiv1 D n hr hs).symm]
  exact Finset.sum_congr rfl fun i _ => by rw [hl i, hg i]

end Cert.LibDotSum

end
-- ==== Proof.KerScore.lean ====
/-
  The kernel body's one stored value, read at an element.

  At a grid point the body loads a block `x0` of source rows and a block `x1` of target rows (8000 × 128 each), the
  two halves `x2`, `x3` of the weight matrix (128 × 128 each) and the projection column `x4` (128 × 1), and stores
  `exp (lrelu (x0 · x2 + x1 · x3) · x4)`.  Read at row `r` this is the score of the edge whose rows are row `r` of
  `x0` and of `x1`: each matrix product into a zero accumulator is the plain sum over the contracted axis, the changes
  of float format are the identity on the extended reals, and the shape casts are between equal shapes.
-/
import proofs.«166324_j46411416601106_1_alg».proof.Proof.Gen.KernelIdeal.Skeleton
import proofs.«166324_j46411416601106_1_alg».proof.Proof.Score
import proofs.«166324_j46411416601106_1_alg».proof.Proof.LibDotSum
import Idealize.ShloMosaic.Lib.Pipeline.Value

noncomputable section

namespace Cert.KernelIdeal.KerScore

open Cert.KernelIdeal Cert.KernelIdeal.Gen Idealize.ShloMosaic Idealize.ShloMosaic.ValueIdx Cert.Attn Cert.LibDotSum

/-- The dimension record of the two 8000×128 by 128×128 products. -/
abbrev dA := dot_S8000x128_S128x128_S8000x128_1_0_0_1_n_n
/-- The dimension record of the 8000×128 by 128×1 product. -/
abbrev dB := dot_S8000x128_S128x1_S8000x1_1_0_0_1_n_n

/-- The left operand of the first product at output `(r, c)` and contraction position `k` is read at `(r, k)`. -/
theorem dA_lhs (r : Fin 8000) (c : Fin 128) (k : Fin 128) :
    dA.lhsIdx (ix2 r c) ((contrEquiv1 dA 128 rfl rfl).symm k) = ix2 r k := by
  funext a
  match a with
  | ⟨0, _⟩ => rfl
  | ⟨1, _⟩ => exact Fin.ext ((dA.lhsIdx_val_of_single (cl := 1) rfl _ _).trans (contrEquiv1_symm_val dA 128 rfl rfl k))

/-- The right operand there is read at `(k, c)`. -/
theorem dA_rhs (r : Fin 8000) (c : Fin 128) (k : Fin 128) :
    dA.rhsIdx (ix2 r c) ((contrEquiv1 dA 128 rfl rfl).symm k) = ix2 k c := by
  funext a
  match a with
  | ⟨0, _⟩ => exact Fin.ext ((dA.rhsIdx_val_of_single (cr := 0) rfl _ _).trans (contrEquiv1_symm_val dA 128 rfl rfl k))
  | ⟨1, _⟩ => rfl

theorem dB_lhs (r : Fin 8000) (u : Fin 1) (k : Fin 128) :
    dB.lhsIdx (ix2 r u) ((contrEquiv1 dB 128 rfl rfl).symm k) = ix2 r k := by
  funext a
  match a with
  | ⟨0, _⟩ => rfl
  | ⟨1, _⟩ => exact Fin.ext ((dB.lhsIdx_val_of_single (cl := 1) rfl _ _).trans (contrEquiv1_symm_val dB 128 rfl rfl k))

theorem dB_rhs (r : Fin 8000) (u : Fin 1) (k : Fin 128) :
    dB.rhsIdx (ix2 r u) ((contrEquiv1 dB 128 rfl rfl).symm k) = ix2 k u := by
  funext a
  match a with
  | ⟨0, _⟩ => exact Fin.ext ((dB.rhsIdx_val_of_single (cr := 0) rfl _ _).trans (contrEquiv1_symm_val dB 128 rfl rfl k))
  | ⟨1, _⟩ => rfl

/-- An 8000×128 by 128×128 product into the zero accumulator, at `(r, c)`: the sum over the 128 contracted positions. -/
theorem mmA (A : FVec Ideal S8000x128 .bf16) (B : FVec Ideal S128x128 .bf16) (r : Fin 8000) (c : Fin 128) :
    matmul dA none A B (constant S8000x128 .f32 0x00000000#32) (ix2 r c) = ∑ k : Fin 128, A (ix2 r k) * B (ix2 k c) :=
  (Ideal.matmul_constant_zero_apply dA none A B (ix2 r c)).trans
    (sum_contr_eq dA 128 rfl rfl A B (ix2 r c) _ _ (fun k => congrArg A (dA_lhs r c k)) (fun k => congrArg B (dA_rhs r c k)))

/-- An 8000×128 by 128×1 product into the zero accumulator, at `(r, u)`. -/
theorem mmB (A : FVec Ideal S8000x128 .bf16) (B : FVec Ideal S128x1 .bf16) (r : Fin 8000) (u : Fin 1) :
    matmul dB none A B (constant S8000x1 .f32 0x00000000#32) (ix2 r u) = ∑ k : Fin 128, A (ix2 r k) * B (ix2 k u) :=
  (Ideal.matmul_constant_zero_apply dB none A B (ix2 r u)).trans
    (sum_contr_eq dB 128 rfl rfl A B (ix2 r u) _ _ (fun k => congrArg A (dB_lhs r u k)) (fun k => congrArg B (dB_rhs r u k)))

/-- The stored value at row `r` is the score of the edge whose rows are row `r` of the two loaded row blocks. -/
theorem pay_apply (x0 x1 : Vec Ideal S8000x128 .bf16) (x2 x3 : Vec Ideal S128x128 .bf16) (x4 : Vec Ideal S128x1 .bf16)
    (r : Fin 8000) (u : Fin 1) :
    k0_pay1 (F := Ideal) x0 x2 x1 x3 x4 (ix2 r u)
      = scoreAt (fun k => x0 (ix2 r k)) (fun k => x1 (ix2 r k)) (fun k c => x2 (ix2 k c)) (fun k c => x3 (ix2 k c))
          (fun c => x4 (ix2 c u)) := by
  unfold k0_pay1 scoreAt
  refine congrArg Ideal.exp ?_
  refine (mmB _ _ r u).trans ?_
  refine Finset.sum_congr rfl fun c _ => ?_
  refine congrArg₂ (· * ·) ?_ (congrFun (shapeCast_self x4 _) (ix2 c u))
  refine congrArg lrelu ?_
  refine congrArg₂ (· + ·) ((mmA _ _ r c).trans ?_) ((mmA _ _ r c).trans ?_)
  · exact Finset.sum_congr rfl fun k _ => congrArg₂ (· * ·) (congrFun (shapeCast_self x0 _) (ix2 r k)) (congrFun (shapeCast_self x2 _) (ix2 k c))
  · exact Finset.sum_congr rfl fun k _ => congrArg₂ (· * ·) (congrFun (shapeCast_self x1 _) (ix2 r k)) (congrFun (shapeCast_self x3 _) (ix2 k c))

end Cert.KernelIdeal.KerScore

end
-- ==== Proof.KerArray.lean ====
/-
  The kernel program's run, read: the region's output array is the score column, and the result follows.

  The region runs the body at 80 grid points.  At point `t` the two row windows hold rows `8000 t … 8000 t + 7999` of
  the source and target row arrays, the other three windows their whole arrays (the two halves of the weight matrix
  and the projection column), and the body writes back the block of 8000 scores of those edges.  The blocks tile the
  column of 640000 scores, edge `e` being written by point `e / 8000`, so after the region the output array is the
  score column of the launch arguments.  The operations after the region then apply `combine` to it.
-/
import proofs.«166324_j46411416601106_1_alg».proof.Proof.Gen.KernelIdeal.Frame
import proofs.«166324_j46411416601106_1_alg».proof.Proof.KerDefs
import proofs.«166324_j46411416601106_1_alg».proof.Proof.KerScore
import proofs.«166324_j46411416601106_1_alg».proof.Proof.Score
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.KerArray

open Cert.KernelIdeal Cert.KernelIdeal.Gen Idealize.ShloMosaic.ValueIdx Cert.Attn Cert.KernelIdeal.KerDefs

variable (m : (ℓ : Loc nD τ sig) → Buf (Elt Ideal) ℓ)

theorem hz : (![0, 0] : Fin 2 → Nat) = fun _ => 0 := funext fun a => by fin_cases a <;> rfl

/-! ## The launch arguments -/

abbrev featA (c : Dev nD) : FVec Ideal S20000x128 .f32 := m ((c.tc : Thread nD τ).loc main_arg0)
abbrev wgtA (c : Dev nD) : FVec Ideal S256x128 .f32 := m ((c.tc : Thread nD τ).loc main_arg1)
abbrev prjA (c : Dev nD) : FVec Ideal S128x1 .f32 := m ((c.tc : Thread nD τ).loc main_arg2)
abbrev srcA (c : Dev nD) : IVec S640000 32 := m ((c.tc : Thread nD τ).loc main_arg3)
abbrev dstA (c : Dev nD) : IVec S640000 32 := m ((c.tc : Thread nD τ).loc main_arg4)

/-- The score column of the launch arguments. -/
abbrev scoreK (c : Dev nD) : FVec Ideal S640000x1 .f32 :=
  scoreArr (rows (featA m c) (srcA m c)) (rows (featA m c) (dstA m c)) (wgtA m c) (prjA m c)

/-! ## What the region finds in its operand arrays -/

theorem V_v16 (c : Dev nD) : V m c main_v16 = (truncf .bf16 (rows (featA m c) (srcA m c)) bitsLt_bf16_f32 : FVec Ideal S640000x128 .bf16) := by
  show StableHlo.after hostOps0 (fun b => m (c, b)) (Proc.devRef .tc main_v16) = _
  exact pre_v16 _
theorem V_v17 (c : Dev nD) : V m c main_v17 = (truncf .bf16 (rows (featA m c) (dstA m c)) bitsLt_bf16_f32 : FVec Ideal S640000x128 .bf16) := by
  show StableHlo.after hostOps0 (fun b => m (c, b)) (Proc.devRef .tc main_v17) = _
  exact pre_v17 _
theorem V_v18 (c : Dev nD) : V m c main_v18 = (truncf .bf16 (extractStridedSlice S128x128 ![0, 0] (wgtA m c) slices_S256x128_S128x128_0_0) bitsLt_bf16_f32 : FVec Ideal S128x128 .bf16) := by
  show StableHlo.after hostOps0 (fun b => m (c, b)) (Proc.devRef .tc main_v18) = _
  exact pre_v18 _
theorem V_v19 (c : Dev nD) : V m c main_v19 = (truncf .bf16 (extractStridedSlice S128x128 ![128, 0] (wgtA m c) slices_S256x128_S128x128_128_0) bitsLt_bf16_f32 : FVec Ideal S128x128 .bf16) := by
  show StableHlo.after hostOps0 (fun b => m (c, b)) (Proc.devRef .tc main_v19) = _
  exact pre_v19 _
theorem V_v20 (c : Dev nD) : V m c main_v20 = (truncf .bf16 (prjA m c) bitsLt_bf16_f32 : FVec Ideal S128x1 .bf16) := by
  show StableHlo.after hostOps0 (fun b => m (c, b)) (Proc.devRef .tc main_v20) = _
  exact pre_v20 _
theorem V_v6 (c : Dev nD) : V m c main_v6 = rows (featA m c) (srcA m c) := by
  show StableHlo.after hostOps0 (fun b => m (c, b)) (Proc.devRef .tc main_v6) = _
  exact pre_v6 _

/-! ## The windows' blocks -/

/-- The printed index maps over the grid: the two row windows and the output window are at block `(t, 0)`, the other
    three at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point `t`, read at `(r, k)`, is its array at `(8000 t + r, k)`. -/
theorem blk0 (c : Dev nD) (t : Fin cfg0.N) (r : Fin 8000) (k : Fin 128) (e : Fin 640000) (he : e.val = 8000 * t.val + r.val) :
    (iblk m c 0 t : Vec Ideal S8000x128 .bf16) (ix2 r k) = (V m c main_v16 : FVec Ideal S640000x128 .bf16) (ix2 e k) := by
  have h0 := (idx_facts t).1
  have h1 := (idx_facts t).2.1
  unfold iblk
  rw [View.read_apply]
  show V m c main_v16 _ = V m c main_v16 _
  refine congrArg (V m c main_v16 : FVec Ideal S640000x128 .bf16) ?_
  funext a
  apply Fin.ext
  match a with
  | ⟨0, _⟩ => show win0_0.index t 0 * 8000 + 1 * r.val = e.val; rw [h0, he]; omega
  | ⟨1, _⟩ => show win0_0.index t 1 * 128 + 1 * k.val = k.val; rw [h1]; omega

/-- Window 1's block at point `t`, read at `(r, k)`, is its array at `(8000 t + r, k)`. -/
theorem blk1 (c : Dev nD) (t : Fin cfg0.N) (r : Fin 8000) (k : Fin 128) (e : Fin 640000) (he : e.val = 8000 * t.val + r.val) :
    (iblk m c 1 t : Vec Ideal S8000x128 .bf16) (ix2 r k) = (V m c main_v17 : FVec Ideal S640000x128 .bf16) (ix2 e k) := by
  have h0 := (idx_facts t).2.2.1
  have h1 := (idx_facts t).2.2.2.1
  unfold iblk
  rw [View.read_apply]
  show V m c main_v17 _ = V m c main_v17 _
  refine congrArg (V m c main_v17 : FVec Ideal S640000x128 .bf16) ?_
  funext a
  apply Fin.ext
  match a with
  | ⟨0, _⟩ => show win0_1.index t 0 * 8000 + 1 * r.val = e.val; rw [h0, he]; omega
  | ⟨1, _⟩ => show win0_1.index t 1 * 128 + 1 * k.val = k.val; rw [h1]; omega

/-- Window 2's block is its whole array at every point. -/
theorem blk2 (c : Dev nD) (t : Fin cfg0.N) (r : Fin 128) (k : Fin 128) :
    (iblk m c 2 t : Vec Ideal S128x128 .bf16) (ix2 r k) = (V m c main_v18 : FVec Ideal S128x128 .bf16) (ix2 r k) := by
  have h0 := (idx_facts t).2.2.2.2.1
  have h1 := (idx_facts t).2.2.2.2.2.1
  unfold iblk
  rw [View.read_apply]
  show V m c main_v18 _ = V m c main_v18 _
  refine congrArg (V m c main_v18 : FVec Ideal S128x128 .bf16) ?_
  funext a
  apply Fin.ext
  match a with
  | ⟨0, _⟩ => show win0_2.index t 0 * 128 + 1 * r.val = r.val; rw [h0]; omega
  | ⟨1, _⟩ => show win0_2.index t 1 * 128 + 1 * k.val = k.val; rw [h1]; omega

/-- Window 3's block is its whole array at every point. -/
theorem blk3 (c : Dev nD) (t : Fin cfg0.N) (r : Fin 128) (k : Fin 128) :
    (iblk m c 3 t : Vec Ideal S128x128 .bf16) (ix2 r k) = (V m c main_v19 : FVec Ideal S128x128 .bf16) (ix2 r k) := by
  have h0 := (idx_facts t).2.2.2.2.2.2.1
  have h1 := (idx_facts t).2.2.2.2.2.2.2.1
  unfold iblk
  rw [View.read_apply]
  show V m c main_v19 _ = V m c main_v19 _
  refine congrArg (V m c main_v19 : FVec Ideal S128x128 .bf16) ?_
  funext a
  apply Fin.ext
  match a with
  | ⟨0, _⟩ => show win0_3.index t 0 * 128 + 1 * r.val = r.val; rw [h0]; omega
  | ⟨1, _⟩ => show win0_3.index t 1 * 128 + 1 * k.val = k.val; rw [h1]; omega

/-- Window 4's block is its whole array at every point. -/
theorem blk4 (c : Dev nD) (t : Fin cfg0.N) (r : Fin 128) (k : Fin 1) :
    (iblk m c 4 t : Vec Ideal S128x1 .bf16) (ix2 r k) = (V m c main_v20 : FVec Ideal S128x1 .bf16) (ix2 r k) := by
  have h0 := (idx_facts t).2.2.2.2.2.2.2.2.1
  have h1 := (idx_facts t).2.2.2.2.2.2.2.2.2.1
  unfold iblk
  rw [View.read_apply]
  show V m c main_v20 _ = V m c main_v20 _
  refine congrArg (V m c main_v20 : FVec Ideal S128x1 .bf16) ?_
  funext a
  apply Fin.ext
  match a with
  | ⟨0, _⟩ => show win0_4.index t 0 * 128 + 1 * r.val = r.val; rw [h0]; omega
  | ⟨1, _⟩ => show win0_4.index t 1 * 1 + 1 * k.val = k.val; rw [h1]; omega

/-- An element `(r, u)` of the output window's block at point `t` sits at `(8000 t + r, u)` of the output array. -/
theorem emb5 (t : Fin cfg0.N) (j : S8000x1.Idx) (r : Fin 8000) (u : Fin 1) (hj : j = ix2 r u) (e : Fin 640000)
    (he : e.val = 8000 * t.val + r.val) :
    ((cfg0.win 5).blk t).view.emb j = (ix2 e u : S640000x1.Idx) := by
  subst hj
  have h0 := (idx_facts t).2.2.2.2.2.2.2.2.2.2.1
  have h1 := (idx_facts t).2.2.2.2.2.2.2.2.2.2.2
  funext a
  apply Fin.ext
  match a with
  | ⟨0, _⟩ => show win0_5.index t 0 * 8000 + 1 * r.val = e.val; rw [h0, he]; omega
  | ⟨1, _⟩ => show win0_5.index t 1 * 1 + 1 * u.val = u.val; rw [h1]; omega

/-! ## The block a point writes back -/

/-- Two scores are equal when their rows, weights and projection agree entry by entry. -/
theorem scoreAt_congr {hi hi' hj hj' : Fin 128 → Ideal .f32} {w1 w1' w2 w2' : Fin 128 → Fin 128 → Ideal .f32} {a a' : Fin 128 → Ideal .f32}
    (e1 : ∀ k, hi k = hi' k) (e2 : ∀ k, hj k = hj' k) (e3 : ∀ k c, w1 k c = w1' k c) (e4 : ∀ k c, w2 k c = w2' k c)
    (e5 : ∀ c, a c = a' c) : scoreAt hi hj w1 w2 a = scoreAt hi' hj' w1' w2' a' := by
  obtain rfl : hi = hi' := funext e1
  obtain rfl : hj = hj' := funext e2
  obtain rfl : w1 = w1' := funext fun k => funext (e3 k)
  obtain rfl : w2 = w2' := funext fun k => funext (e4 k)
  obtain rfl : a = a' := funext e5
  rfl

/-- The body's stored value at point `t`, at an element of the block, is the score column at that element's place in
    the output array. -/
theorem stored_at (c : Dev nD) (t : Fin cfg0.N) (j : S8000x1.Idx) :
    k0_pay1 (F := Ideal) (iblk m c 0 t) (iblk m c 2 t) (iblk m c 1 t) (iblk m c 3 t) (iblk m c 4 t) j
      = scoreK m c (((cfg0.win 5).blk t).view.emb j) := by
  obtain ⟨r, u, rfl⟩ : ∃ (r : Fin 8000) (u : Fin 1), j = ix2 r u := ⟨j 0, j 1, eq_ix2 j⟩
  have hN : cfg0.N = 80 := N_0
  have hlt : 8000 * t.val + r.val < 640000 := by have := t.isLt; have := r.isLt; omega
  rw [emb5 t (ix2 r u) r u rfl ⟨8000 * t.val + r.val, hlt⟩ rfl]
  refine (KerScore.pay_apply _ _ _ _ _ r u).trans ?_
  refine Eq.trans ?_ (scoreArr_apply _ _ _ _ ⟨8000 * t.val + r.val, hlt⟩ u).symm
  refine scoreAt_congr (fun k => ?_) (fun k => ?_) (fun k c' => ?_) (fun k c' => ?_) (fun c' => ?_)
  · exact (blk0 m c t r k ⟨8000 * t.val + r.val, hlt⟩ rfl).trans (congrFun (V_v16 m c) _)
  · exact (blk1 m c t r k ⟨8000 * t.val + r.val, hlt⟩ rfl).trans (congrFun (V_v17 m c) _)
  · exact ((blk2 m c t k c').trans (congrFun (V_v18 m c) _)).trans
      (slice2_axis0_apply 0 (wgtA m c) slices_S256x128_S128x128_0_0 k c' ⟨k.val, by omega⟩ (Nat.zero_add _).symm)
  · exact ((blk3 m c t k c').trans (congrFun (V_v19 m c) _)).trans
      (slice2_axis0_apply 128 (wgtA m c) slices_S256x128_S128x128_128_0 k c' ⟨128 + k.val, by omega⟩ rfl)
  · exact (blk4 m c t c' u).trans (congrFun (V_v20 m c) _)

/-- What point `t` writes back is block `t` of the score column. -/
theorem flushed_eq (c : Dev nD) (t : Fin cfg0.N) :
    (dats m 0 c).flushed 5 t = ((cfg0.win 5).blk t).view.read (Elt Ideal) (scoreK m c) := by
  show (cfg0.win 5).cut (grid0.coords t) ((dats m 0 c).after 5 t) = _
  rw [after0_5]
  unfold out0_5
  rw [View.canon_unit_zero hz]
  simp only [View.ld_unit_zero (S := S8000x128) hz, View.ld_unit_zero (S := S128x128) hz, View.ld_unit_zero (S := S128x1) hz]
  funext j
  exact stored_at m c t j

/-! ## The blocks tile the output array -/

/-- An index of the output array is in point `t`'s block iff each coordinate is in the block's range on its axis. -/
theorem mem_blk5 (t : Fin cfg0.N) (i : S640000x1.Idx) :
    i ∈ ((cfg0.win 5).blk t).view.set ↔ ∀ a : Fin 2, win0_5.index t a * S8000x1.size a ≤ (i a).val ∧ (i a).val < win0_5.index t a * S8000x1.size a + S8000x1.size a := by
  show i ∈ ((View.whole main_v21).slice (win0_5.rect t)).set ↔ _
  rw [View.set_slice_whole, Rect.mem_set_unit]
  exact Iff.rfl

/-- Edge `e`'s score is written back by point `e / 8000`. -/
theorem cover5 (i : S640000x1.Idx) : ∃ t : Fin cfg0.N, (cfg0.win 5).flush t = true ∧ i ∈ ((cfg0.win 5).blk t).view.set := by
  have hi0 : (i 0).val < 640000 := idx2_lt0 i
  have hi1 : (i 1).val < 1 := idx2_lt1 i
  have hN : cfg0.N = 80 := N_0
  have hq : (i 0).val / 8000 < cfg0.N := by rw [hN]; omega
  have h0 := (idx_facts ⟨(i 0).val / 8000, hq⟩).2.2.2.2.2.2.2.2.2.2.1
  have h1 := (idx_facts ⟨(i 0).val / 8000, hq⟩).2.2.2.2.2.2.2.2.2.2.2
  refine ⟨⟨(i 0).val / 8000, hq⟩, flush0_5 _, ?_⟩
  rw [mem_blk5]
  intro a
  match a with
  | ⟨0, _⟩ =>
    show win0_5.index ⟨(i 0).val / 8000, hq⟩ 0 * 8000 ≤ (i 0).val ∧ (i 0).val < win0_5.index ⟨(i 0).val / 8000, hq⟩ 0 * 8000 + 8000
    rw [h0]; show (i 0).val / 8000 * 8000 ≤ (i 0).val ∧ (i 0).val < (i 0).val / 8000 * 8000 + 8000; omega
  | ⟨1, _⟩ =>
    show win0_5.index ⟨(i 0).val / 8000, hq⟩ 1 * 1 ≤ (i 1).val ∧ (i 1).val < win0_5.index ⟨(i 0).val / 8000, hq⟩ 1 * 1 + 1
    rw [h1]; omega

/-- After the region the output array is the score column of the launch arguments. -/
theorem final5 (c : Dev nD) : (dats m 0 c).arrAt 5 cfg0.N = scoreK m c :=
  (dats m 0 c).arrAt_eq_of_cover 5 (scoreK m c) (fun t _ => flushed_eq m c t) cover5

/-! ## The result -/

/-- The result buffer after the operations that follow the region. -/
theorem out_eq (c : Dev nD) : Pipeline.afterTail₀ cfgs (dats m) 0 (V0 m) [hostOps1] c main_v37
    = combine (srcA m c) (dstA m c) (rows (featA m c) (srcA m c)) (scoreK m c) := by
  unfold Pipeline.afterTail₀
  show StableHlo.after hostOps1 _ (Proc.devRef .tc main_v37) = _
  refine (tail_v37 _).trans ?_
  rw [Pipeline.withArrays_of_ne _ c (V0 m c) _ main_arg3 (by exact (by decide : ∀ w, Pipeline.arrRef spec0 w ≠ main_arg3)),
    Pipeline.withArrays_of_ne _ c (V0 m c) _ main_arg4 (by exact (by decide : ∀ w, Pipeline.arrRef spec0 w ≠ main_arg4)),
    Pipeline.withArrays_of_ne _ c (V0 m c) _ main_v6 (by exact (by decide : ∀ w, Pipeline.arrRef spec0 w ≠ main_v6)),
    show Pipeline.withArrays _ c (V0 m c) _ (Proc.devRef .tc main_v21) = _ from Pipeline.withArrays_arr spec0 launch0.win.arr_inj c _ _ 5]
  exact congr (congr (congr (congrArg combine (V_main_arg3 m c)) (V_main_arg4 m c)) (V_v6 m c)) (final5 m c)

/-- The kernel program's run: it terminates with the result buffer at `combine` of the score column, and the arguments
    unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v37) = combine (srcA m c) (dstA m c) (rows (featA m c) (srcA m c)) (scoreK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v37 (Pipeline.mem_restRefs_of main_v37 (by decide) (by decide))).trans (out_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KerArray

end
-- ==== Proof.RefRun.lean ====
/-
  The reference program's run.

  The reference is a straight line of host operations once its two outlined functions are written at their call
  site: leaky-relu, `select (x ≥ 0) x (0.2 · x)`, and the select it calls.  So every weakly fair execution of it
  terminates, each buffer ending at the fold of the operations over the launch contents.  Read at the result buffer
  that fold is one composed function of the five arguments:

    rows h s      the rows of the node features `h` that the (wrapped) indices `s` name,
    score …       `exp (leakyrelu ([rows h src | rows h dst] · w) · a)`, one number per edge,
    combine …     the scores normalised over the edges sharing a source node, each edge's source row scaled by its
                  normalised score, and the scaled rows summed into their target nodes.
-/
import proofs.«166324_j46411416601106_1_alg».proof.ReferenceIdeal
import proofs.«166324_j46411416601106_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's operations in order, the outlined leaky-relu (and the select it calls) written where it is called. -/
abbrev ops : List (HloOp τ sig (Elt F)) :=
  [ StableHlo.nullary main_c (constantI S_ 32 0#32),
    StableHlo.unary main_c main_v0 (broadcastInDim S640000 ![] bcast_S_S640000 : (⟨S_, .i32⟩ : BufTy).Contents (Elt F) → (⟨S640000, .i32⟩ : BufTy).Contents (Elt F)),
    StableHlo.binary main_arg3 main_v0 main_v1 (cmpi .slt : (⟨S640000, .i32⟩ : BufTy).Contents (Elt F) → (⟨S640000, .i32⟩ : BufTy).Contents (Elt F) → (⟨S640000, .i1⟩ : BufTy).Contents (Elt F)),
    StableHlo.nullary main_c_0 (constantI S_ 32 20000#32),
    StableHlo.unary main_c_0 main_v2 (broadcastInDim S640000 ![] bcast_S_S640000 : (⟨S_, .i32⟩ : BufTy).Contents (Elt F) → (⟨S640000, .i32⟩ : BufTy).Contents (Elt F)),
    StableHlo.binary main_arg3 main_v2 main_v3 (addi : (⟨S640000, .i32⟩ : BufTy).Contents (Elt F) → (⟨S640000, .i32⟩ : BufTy).Contents (Elt F) → (⟨S640000, .i32⟩ : BufTy).Contents (Elt F)),
    StableHlo.ternary main_v1 main_v3 main_arg3 main_v4 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v4 main_v5 (broadcastInDim S640000x1 ![0] bcast_S640000_S640000x1_0 : (⟨S640000, .i32⟩ : BufTy).Contents (Elt F) → (⟨S640000x1, .i32⟩ : BufTy).Contents (Elt F)),
    StableHlo.binary main_arg0 main_v5 main_v6 ((fun x i => Host.gather gather_S20000x128_S640000x1_S640000x128_1_0_n_n_0_1_1128 x i) : (⟨S20000x128, .f32⟩ : BufTy).Contents (Elt F) → (⟨S640000x1, .i32⟩ : BufTy).Contents (Elt F) → (⟨S640000x128, .f32⟩ : BufTy).Contents (Elt F)),
    StableHlo.nullary main_c_1 (constantI S_ 32 0#32),
    StableHlo.unary main_c_1 main_v7 (broadcastInDim S640000 ![] bcast_S_S640000 : (⟨S_, .i32⟩ : BufTy).Contents (Elt F) → (⟨S640000, .i32⟩ : BufTy).Contents (Elt F)),
    StableHlo.binary main_arg4 main_v7 main_v8 (cmpi .slt : (⟨S640000, .i32⟩ : BufTy).Contents (Elt F) → (⟨S640000, .i32⟩ : BufTy).Contents (Elt F) → (⟨S640000, .i1⟩ : BufTy).Contents (Elt F)),
    StableHlo.nullary main_c_2 (constantI S_ 32 20000#32),
    StableHlo.unary main_c_2 main_v9 (broadcastInDim S640000 ![] bcast_S_S640000 : (⟨S_, .i32⟩ : BufTy).Contents (Elt F) → (⟨S640000, .i32⟩ : BufTy).Contents (Elt F)),
    StableHlo.binary main_arg4 main_v9 main_v10 (addi : (⟨S640000, .i32⟩ : BufTy).Contents (Elt F) → (⟨S640000, .i32⟩ : BufTy).Contents (Elt F) → (⟨S640000, .i32⟩ : BufTy).Contents (Elt F)),
    StableHlo.ternary main_v8 main_v10 main_arg4 main_v11 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v11 main_v12 (broadcastInDim S640000x1 ![0] bcast_S640000_S640000x1_0 : (⟨S640000, .i32⟩ : BufTy).Contents (Elt F) → (⟨S640000x1, .i32⟩ : BufTy).Contents (Elt F)),
    StableHlo.binary main_arg0 main_v12 main_v13 ((fun x i => Host.gather gather_S20000x128_S640000x1_S640000x128_1_0_n_n_0_1_1128 x i) : (⟨S20000x128, .f32⟩ : BufTy).Contents (Elt F) → (⟨S640000x1, .i32⟩ : BufTy).Contents (Elt F) → (⟨S640000x128, .f32⟩ : BufTy).Contents (Elt F)),
    StableHlo.binary main_v6 main_v13 main_v14 ((fun a b => concatenate S640000x256 1 [⟨S640000x128, a⟩, ⟨S640000x128, b⟩] concatenates_S640000x128_S640000x128_S640000x256_d1) : (⟨S640000x128, .f32⟩ : BufTy).Contents (Elt F) → (⟨S640000x128, .f32⟩ : BufTy).Contents (Elt F) → (⟨S640000x256, .f32⟩ : BufTy).Contents (Elt F)),
    StableHlo.binary main_v14 main_arg1 main_v15 ((fun l r => Host.dotGeneral dot_S640000x256_S256x128_S640000x128_1_0_0_1_n_n none l r) : (⟨S640000x256, .f32⟩ : BufTy).Contents (Elt F) → (⟨S256x128, .f32⟩ : BufTy).Contents (Elt F) → (⟨S640000x128, .f32⟩ : BufTy).Contents (Elt F)),
    StableHlo.nullary main_cst (constant S_ .f32 0x3E4CCCCD#32),
    StableHlo.TRef.nullary main_call0.cst (constant S_ .f32 0x00000000#32),
    StableHlo.TRef.unary main_call0.cst main_call0.v0 (broadcastInDim S640000x128 ![] bcast_S_S640000x128),
    StableHlo.TRef.binary (.of main_v15) main_call0.v0 main_call0.v1 (cmpf .oge),
    StableHlo.TRef.unary (.of main_cst) main_call0.v2 id,
    StableHlo.TRef.unary main_call0.v2 main_call0.v3 (broadcastInDim S640000x128 ![] bcast_S_S640000x128),
    StableHlo.TRef.binary main_call0.v3 (.of main_v15) main_call0.v4 mulf,
    StableHlo.TRef.ternary main_call0.v1 (.of main_v15) main_call0.v4 main_call0.call0.v0 select,
    StableHlo.binary main_v16 main_arg2 main_v17 ((fun l r => Host.dotGeneral dot_S640000x128_S128x1_S640000x1_1_0_0_1_n_n none l r) : (⟨S640000x128, .f32⟩ : BufTy).Contents (Elt F) → (⟨S128x1, .f32⟩ : BufTy).Contents (Elt F) → (⟨S640000x1, .f32⟩ : BufTy).Contents (Elt F)),
    StableHlo.unary main_v17 main_v18 (Host.exp : (⟨S640000x1, .f32⟩ : BufTy).Contents (Elt F) → (⟨S640000x1, .f32⟩ : BufTy).Contents (Elt F)),
    StableHlo.nullary main_cst_3 (constant S_ .f32 0x00000000#32),
    StableHlo.unary main_cst_3 main_v19 (broadcastInDim S20000x1 ![] bcast_S_S20000x1 : (⟨S_, .f32⟩ : BufTy).Contents (Elt F) → (⟨S20000x1, .f32⟩ : BufTy).Contents (Elt F)),
    StableHlo.unary main_arg3 main_v20 (broadcastInDim S640000x1 ![0] bcast_S640000_S640000x1_0 : (⟨S640000, .i32⟩ : BufTy).Contents (Elt F) → (⟨S640000x1, .i32⟩ : BufTy).Contents (Elt F)),
    StableHlo.ternary main_v19 main_v20 main_v18 main_v21 ((fun x i u => Host.scatterAdd scatter_S20000x1_S640000x1_S640000x1_1_0_0_1 x i u) : (⟨S20000x1, .f32⟩ : BufTy).Contents (Elt F) → (⟨S640000x1, .i32⟩ : BufTy).Contents (Elt F) → (⟨S640000x1, .f32⟩ : BufTy).Contents (Elt F) → (⟨S20000x1, .f32⟩ : BufTy).Contents (Elt F)),
    StableHlo.nullary main_c_4 (constantI S_ 32 0#32),
    StableHlo.unary main_c_4 main_v22 (broadcastInDim S640000 ![] bcast_S_S640000 : (⟨S_, .i32⟩ : BufTy).Contents (Elt F) → (⟨S640000, .i32⟩ : BufTy).Contents (Elt F)),
    StableHlo.binary main_arg3 main_v22 main_v23 (cmpi .slt : (⟨S640000, .i32⟩ : BufTy).Contents (Elt F) → (⟨S640000, .i32⟩ : BufTy).Contents (Elt F) → (⟨S640000, .i1⟩ : BufTy).Contents (Elt F)),
    StableHlo.nullary main_c_5 (constantI S_ 32 20000#32),
    StableHlo.unary main_c_5 main_v24 (broadcastInDim S640000 ![] bcast_S_S640000 : (⟨S_, .i32⟩ : BufTy).Contents (Elt F) → (⟨S640000, .i32⟩ : BufTy).Contents (Elt F)),
    StableHlo.binary main_arg3 main_v24 main_v25 (addi : (⟨S640000, .i32⟩ : BufTy).Contents (Elt F) → (⟨S640000, .i32⟩ : BufTy).Contents (Elt F) → (⟨S640000, .i32⟩ : BufTy).Contents (Elt F)),
    StableHlo.ternary main_v23 main_v25 main_arg3 main_v26 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v26 main_v27 (broadcastInDim S640000x1 ![0] bcast_S640000_S640000x1_0 : (⟨S640000, .i32⟩ : BufTy).Contents (Elt F) → (⟨S640000x1, .i32⟩ : BufTy).Contents (Elt F)),
    StableHlo.binary main_v21 main_v27 main_v28 ((fun x i => Host.gather gather_S20000x1_S640000x1_S640000x1_1_0_n_n_0_1_11 x i) : (⟨S20000x1, .f32⟩ : BufTy).Contents (Elt F) → (⟨S640000x1, .i32⟩ : BufTy).Contents (Elt F) → (⟨S640000x1, .f32⟩ : BufTy).Contents (Elt F)),
    StableHlo.binary main_v18 main_v28 main_v29 (Host.divf : (⟨S640000x1, .f32⟩ : BufTy).Contents (Elt F) → (⟨S640000x1, .f32⟩ : BufTy).Contents (Elt F) → (⟨S640000x1, .f32⟩ : BufTy).Contents (Elt F)),
    StableHlo.unary main_v29 main_v30 (broadcastInDim S640000x128 ![0, 1] bcast_S640000x1_S640000x128_0_1 : (⟨S640000x1, .f32⟩ : BufTy).Contents (Elt F) → (⟨S640000x128, .f32⟩ : BufTy).Contents (Elt F)),
    StableHlo.binary main_v6 main_v30 main_v31 (mulf : (⟨S640000x128, .f32⟩ : BufTy).Contents (Elt F) → (⟨S640000x128, .f32⟩ : BufTy).Contents (Elt F) → (⟨S640000x128, .f32⟩ : BufTy).Contents (Elt F)),
    StableHlo.nullary main_cst_6 (constant S_ .f32 0x00000000#32),
    StableHlo.unary main_cst_6 main_v32 (broadcastInDim S20000x128 ![] bcast_S_S20000x128 : (⟨S_, .f32⟩ : BufTy).Contents (Elt F) → (⟨S20000x128, .f32⟩ : BufTy).Contents (Elt F)),
    StableHlo.unary main_arg4 main_v33 (broadcastInDim S640000x1 ![0] bcast_S640000_S640000x1_0 : (⟨S640000, .i32⟩ : BufTy).Contents (Elt F) → (⟨S640000x1, .i32⟩ : BufTy).Contents (Elt F)),
    StableHlo.ternary main_v32 main_v33 main_v31 main_v34 ((fun x i u => Host.scatterAdd scatter_S20000x128_S640000x1_S640000x128_1_0_0_1 x i u) : (⟨S20000x128, .f32⟩ : BufTy).Contents (Elt F) → (⟨S640000x1, .i32⟩ : BufTy).Contents (Elt F) → (⟨S640000x128, .f32⟩ : BufTy).Contents (Elt F) → (⟨S20000x128, .f32⟩ : BufTy).Contents (Elt F)) ]

set_option maxRecDepth 2048 in
/-- The reference's entry point is that straight line. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., unary_bufs_sub .., ternary_bufs_sub ..⟩

/-- Every weakly fair execution of the reference terminates, every buffer ending at the fold of the operations'
    results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefScore.lean ====
/-
  What the reference computes, and its score column as the per-edge formula.

  The reference's result is `combine src dst (rows h src) (score (rows h src) (rows h dst) w a)`: gather the source and
  target rows, score every edge, then normalise the scores over the edges sharing a source node and sum each edge's
  scaled source row into its target node.  The score column, read at edge `e`, is the formula of `scoreAt`: the
  product of the concatenated row `[hi e | hj e]` with the 256 × 128 weight matrix is a sum over 256 positions, whose
  first 128 read `hi e` against the upper half of the matrix and whose last 128 read `hj e` against the lower half.
-/
import proofs.«166324_j46411416601106_1_alg».proof.Proof.RefRun
import proofs.«166324_j46411416601106_1_alg».proof.Proof.Score
import proofs.«166324_j46411416601106_1_alg».proof.Proof.LibDotSum
import Idealize.ShloMosaic.Lib.Pipeline.Value

noncomputable section

namespace Cert.ReferenceIdeal.RefScore

open Cert.ReferenceIdeal Cert.ReferenceIdeal.Gen Idealize.ShloMosaic Idealize.ShloMosaic.ValueIdx Idealize.ShloMosaic.StableHlo
open Idealize.SL.Sem Cert.Attn Cert.LibDotSum Cert.ReferenceIdeal.RefRun

/-- An index array as a column, a negative entry first moved up by the number of nodes (jnp's wrap-around). -/
def wrapped (s : IVec S640000 32) : IVec S640000x1 32 :=
  broadcastInDim S640000x1 ![0] bcast_S640000_S640000x1_0
    (select (cmpi .slt s (broadcastInDim S640000 ![] bcast_S_S640000 (constantI S_ 32 0#32)))
      (addi s (broadcastInDim S640000 ![] bcast_S_S640000 (constantI S_ 32 20000#32))) s)

/-- The rows of the node features that an index array names. -/
def rows (h : FVec Ideal S20000x128 .f32) (s : IVec S640000 32) : FVec Ideal S640000x128 .f32 :=
  Host.gather gather_S20000x128_S640000x1_S640000x128_1_0_n_n_0_1_1128 h (wrapped s)

/-- Leaky relu of every entry. -/
def lreluArr (x : FVec Ideal S640000x128 .f32) : FVec Ideal S640000x128 .f32 :=
  select (cmpf .oge x (broadcastInDim S640000x128 ![] bcast_S_S640000x128 (constant (F := Ideal) S_ .f32 0x00000000#32))) x
    (mulf (broadcastInDim S640000x128 ![] bcast_S_S640000x128 (id (constant (F := Ideal) S_ .f32 0x3E4CCCCD#32))) x)

/-- The score of every edge, the reference's way: one product of the concatenated rows with the whole weight matrix. -/
def score (hi hj : FVec Ideal S640000x128 .f32) (w : FVec Ideal S256x128 .f32) (a : FVec Ideal S128x1 .f32) :
    FVec Ideal S640000x1 .f32 :=
  Host.exp (Host.dotGeneral dot_S640000x128_S128x1_S640000x1_1_0_0_1_n_n none
    (lreluArr (Host.dotGeneral dot_S640000x256_S256x128_S640000x128_1_0_0_1_n_n none
      (concatenate S640000x256 1 [⟨S640000x128, hi⟩, ⟨S640000x128, hj⟩] concatenates_S640000x128_S640000x128_S640000x256_d1) w)) a)

/-- From the scores to the result: normalise over the edges of each source node, scale the source rows, sum into the
    target nodes. -/
def combine (s d : IVec S640000 32) (hi : FVec Ideal S640000x128 .f32) (ex : FVec Ideal S640000x1 .f32) :
    FVec Ideal S20000x128 .f32 :=
  Host.scatterAdd scatter_S20000x128_S640000x1_S640000x128_1_0_0_1
    (broadcastInDim S20000x128 ![] bcast_S_S20000x128 (constant (F := Ideal) S_ .f32 0x00000000#32))
    (broadcastInDim S640000x1 ![0] bcast_S640000_S640000x1_0 d)
    (mulf hi (broadcastInDim S640000x128 ![0, 1] bcast_S640000x1_S640000x128_0_1
      (Host.divf ex (Host.gather gather_S20000x1_S640000x1_S640000x1_1_0_n_n_0_1_11
        (Host.scatterAdd scatter_S20000x1_S640000x1_S640000x1_1_0_0_1
          (broadcastInDim S20000x1 ![] bcast_S_S20000x1 (constant (F := Ideal) S_ .f32 0x00000000#32))
          (broadcastInDim S640000x1 ![0] bcast_S640000_S640000x1_0 s) ex) (wrapped s)))))

/-- The reference's result as one function of its five arguments. -/
def out (h : FVec Ideal S20000x128 .f32) (w : FVec Ideal S256x128 .f32) (a : FVec Ideal S128x1 .f32) (s d : IVec S640000 32) :
    FVec Ideal S20000x128 .f32 :=
  combine s d (rows h s) (score (rows h s) (rows h d) w a)

attribute [local irreducible] Host.gather Host.scatterAdd concatenate in
set_option maxRecDepth 8192 in
set_option maxHeartbeats 400000 in
/-- The fold of the operations, read at the result buffer, is `out` of the argument buffers. -/
theorem out_eq (V : Valuation τ sig (Elt Ideal)) :
    after (ops (F := Ideal)) V (Proc.devRef .tc main_v34)
      = out (V (Proc.devRef .tc main_arg0)) (V (Proc.devRef .tc main_arg1)) (V (Proc.devRef .tc main_arg2))
          (V (Proc.devRef .tc main_arg3)) (V (Proc.devRef .tc main_arg4)) := by
  after_results_simp
  rfl

set_option maxRecDepth 8192 in
theorem arg0_eq (V : Valuation τ sig (Elt Ideal)) : after (ops (F := Ideal)) V (Proc.devRef .tc main_arg0) = V (Proc.devRef .tc main_arg0) := by
  after_results_simp
set_option maxRecDepth 8192 in
theorem arg1_eq (V : Valuation τ sig (Elt Ideal)) : after (ops (F := Ideal)) V (Proc.devRef .tc main_arg1) = V (Proc.devRef .tc main_arg1) := by
  after_results_simp
set_option maxRecDepth 8192 in
theorem arg2_eq (V : Valuation τ sig (Elt Ideal)) : after (ops (F := Ideal)) V (Proc.devRef .tc main_arg2) = V (Proc.devRef .tc main_arg2) := by
  after_results_simp
set_option maxRecDepth 8192 in
theorem arg3_eq (V : Valuation τ sig (Elt Ideal)) : after (ops (F := Ideal)) V (Proc.devRef .tc main_arg3) = V (Proc.devRef .tc main_arg3) := by
  after_results_simp
set_option maxRecDepth 8192 in
theorem arg4_eq (V : Valuation τ sig (Elt Ideal)) : after (ops (F := Ideal)) V (Proc.devRef .tc main_arg4) = V (Proc.devRef .tc main_arg4) := by
  after_results_simp

/-- The reference's run: it terminates with the result buffer at `out` of the launch contents of the arguments, and
    the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v34).trans (out_eq _), (h c main_arg0).trans (arg0_eq _),
      (h c main_arg1).trans (arg1_eq _), (h c main_arg2).trans (arg2_eq _), (h c main_arg3).trans (arg3_eq _),
      (h c main_arg4).trans (arg4_eq _)⟩) (run_all m ρ)

/-! ## The score column at an edge -/

/-- The dimension record of the 640000×256 by 256×128 product. -/
abbrev dA := dot_S640000x256_S256x128_S640000x128_1_0_0_1_n_n
/-- The dimension record of the 640000×128 by 128×1 product. -/
abbrev dB := dot_S640000x128_S128x1_S640000x1_1_0_0_1_n_n

theorem dA_lhs (e : Fin 640000) (c : Fin 128) (k : Fin 256) :
    dA.lhsIdx (ix2 e c) ((contrEquiv1 dA 256 rfl rfl).symm k) = ix2 e k := by
  funext a
  match a with
  | ⟨0, _⟩ => rfl
  | ⟨1, _⟩ => exact Fin.ext ((dA.lhsIdx_val_of_single (cl := 1) rfl _ _).trans (contrEquiv1_symm_val dA 256 rfl rfl k))

theorem dA_rhs (e : Fin 640000) (c : Fin 128) (k : Fin 256) :
    dA.rhsIdx (ix2 e c) ((contrEquiv1 dA 256 rfl rfl).symm k) = ix2 k c := by
  funext a
  match a with
  | ⟨0, _⟩ => exact Fin.ext ((dA.rhsIdx_val_of_single (cr := 0) rfl _ _).trans (contrEquiv1_symm_val dA 256 rfl rfl k))
  | ⟨1, _⟩ => rfl

theorem dB_lhs (e : Fin 640000) (u : Fin 1) (k : Fin 128) :
    dB.lhsIdx (ix2 e u) ((contrEquiv1 dB 128 rfl rfl).symm k) = ix2 e k := by
  funext a
  match a with
  | ⟨0, _⟩ => rfl
  | ⟨1, _⟩ => exact Fin.ext ((dB.lhsIdx_val_of_single (cl := 1) rfl _ _).trans (contrEquiv1_symm_val dB 128 rfl rfl k))

theorem dB_rhs (e : Fin 640000) (u : Fin 1) (k : Fin 128) :
    dB.rhsIdx (ix2 e u) ((contrEquiv1 dB 128 rfl rfl).symm k) = ix2 k u := by
  funext a
  match a with
  | ⟨0, _⟩ => exact Fin.ext ((dB.rhsIdx_val_of_single (cr := 0) rfl _ _).trans (contrEquiv1_symm_val dB 128 rfl rfl k))
  | ⟨1, _⟩ => rfl

/-- The 640000×256 by 256×128 product at `(e, c)`: the sum over the 256 contracted positions. -/
theorem dgA (A : FVec Ideal S640000x256 .f32) (B : FVec Ideal S256x128 .f32) (e : Fin 640000) (c : Fin 128) :
    Host.dotGeneral dA none A B (ix2 e c) = ∑ k : Fin 256, A (ix2 e k) * B (ix2 k c) :=
  (Ideal.dotGeneral_apply dA none .single A B (ix2 e c)).trans
    (sum_contr_eq dA 256 rfl rfl A B (ix2 e c) _ _ (fun k => congrArg A (dA_lhs e c k)) (fun k => congrArg B (dA_rhs e c k)))

/-- The 640000×128 by 128×1 product at `(e, u)`. -/
theorem dgB (A : FVec Ideal S640000x128 .f32) (B : FVec Ideal S128x1 .f32) (e : Fin 640000) (u : Fin 1) :
    Host.dotGeneral dB none A B (ix2 e u) = ∑ k : Fin 128, A (ix2 e k) * B (ix2 k u) :=
  (Ideal.dotGeneral_apply dB none .single A B (ix2 e u)).trans
    (sum_contr_eq dB 128 rfl rfl A B (ix2 e u) _ _ (fun k => congrArg A (dB_lhs e u k)) (fun k => congrArg B (dB_rhs e u k)))

/-- The reference's score column is the per-edge formula over the two row arrays, the weight matrix and the projection. -/
theorem score_eq (hi hj : FVec Ideal S640000x128 .f32) (w : FVec Ideal S256x128 .f32) (a : FVec Ideal S128x1 .f32) :
    score hi hj w a = scoreArr hi hj w a := by
  funext i
  obtain ⟨e, u, rfl⟩ : ∃ (e : Fin 640000) (u : Fin 1), i = ix2 e u := ⟨i 0, i 1, eq_ix2 i⟩
  refine Eq.trans ?_ (scoreArr_apply hi hj w a e u).symm
  unfold score scoreAt
  show Ideal.exp _ = Ideal.exp _
  refine congrArg Ideal.exp ?_
  refine (dgB _ _ e u).trans ?_
  refine Finset.sum_congr rfl fun c _ => ?_
  refine congrArg (· * a (ix2 c u)) ?_
  show lrelu _ = lrelu _
  refine congrArg lrelu ?_
  refine (dgA _ _ e c).trans ?_
  refine (sum_halves _).trans ?_
  refine congrArg₂ (· + ·) (Finset.sum_congr rfl fun k _ => ?_) (Finset.sum_congr rfl fun k _ => ?_)
  · refine congrArg (· * w (ix2 (⟨k.val, by omega⟩ : Fin 256) c)) ?_
    exact concatenate_pair_apply_left (1 : Fin 2) hi hj _ (ix2 e (⟨k.val, by omega⟩ : Fin 256)) rfl (ix2 e k)
      (fun b => by match b with | ⟨0, _⟩ => rfl | ⟨1, _⟩ => rfl)
  · refine congrArg (· * w (ix2 (⟨128 + k.val, by omega⟩ : Fin 256) c)) ?_
    exact concatenate_pair_apply_right (1 : Fin 2) hi hj _ (ix2 e (⟨128 + k.val, by omega⟩ : Fin 256)) rfl rfl (ix2 e k)
      (fun b hb => by match b with | ⟨0, _⟩ => rfl | ⟨1, _⟩ => exact absurd rfl hb)
      (Nat.add_comm _ _)

end Cert.ReferenceIdeal.RefScore

end
-- ==== Proof.lean ====
/-
  A graph-attention layer: the kernel program against its reference, over the extended reals.

  Both programs gather, for each of the 640000 edges, the feature rows of its source and target nodes, give the edge
  the score `exp (lrelu ([hi | hj] · w) · a)`, normalise the scores over the edges sharing a source node, scale each
  edge's source row by its normalised score and sum the scaled rows into their target nodes.  The normalisation and the
  two sums over edges are the same host operations in both programs, applied to the score column; so the claim
  comes down to the score column, which the reference computes as one product of the concatenated rows with the
  256 × 128 weight matrix, and the kernel as the sum of two products with the matrix's upper and lower halves, block of
  8000 edges by block.  The two agree entry by entry: a sum over 256 positions is the sum over its first 128 plus the
  sum over its last 128, and a change of float format is the identity on the extended reals.  Nothing here needs the
  inputs to be finite.

  The kernel programs' frames are the generated ones; the reference's frame is its run with the result dropped; the
  idealisation rewrote nothing, so there is nothing to preserve.
-/
import proofs.«166324_j46411416601106_1_alg».proof.Defs
import proofs.«166324_j46411416601106_1_alg».proof.Proof.Gen.Kernel
import proofs.«166324_j46411416601106_1_alg».proof.Proof.Gen.Kernel.Skeleton
import proofs.«166324_j46411416601106_1_alg».proof.Proof.Gen.Kernel.Launch
import proofs.«166324_j46411416601106_1_alg».proof.Proof.Gen.Kernel.Points
import proofs.«166324_j46411416601106_1_alg».proof.Proof.Gen.Kernel.Frame
import proofs.«166324_j46411416601106_1_alg».proof.Proof.Gen.KernelIdeal
import proofs.«166324_j46411416601106_1_alg».proof.Proof.Gen.KernelIdeal.Skeleton
import proofs.«166324_j46411416601106_1_alg».proof.Proof.Gen.KernelIdeal.Launch
import proofs.«166324_j46411416601106_1_alg».proof.Proof.Gen.KernelIdeal.Points
import proofs.«166324_j46411416601106_1_alg».proof.Proof.Gen.KernelIdeal.Frame
import proofs.«166324_j46411416601106_1_alg».proof.Proof.Gen.ReferenceIdeal
import proofs.«166324_j46411416601106_1_alg».proof.Proof.Gen.Pre_finite_inputs
import proofs.«166324_j46411416601106_1_alg».proof.Proof.KerArray
import proofs.«166324_j46411416601106_1_alg».proof.Proof.RefScore
import Idealize.ShloMosaic.Adequacy
import Idealize.ShloMosaic.Init

noncomputable section

namespace Cert.Proof

open Idealize.ShloMosaic Idealize.SL.Sem Cert.Kernel

attribute [local irreducible] Host.gather Host.scatterAdd in
/-- Gathering rows is one function in the two programs. -/
theorem rows_eq : @Cert.ReferenceIdeal.RefScore.rows = @Cert.KernelIdeal.KerDefs.rows := rfl

attribute [local irreducible] Host.gather Host.scatterAdd in
/-- So is the way from the score column to the result. -/
theorem combine_eq : @Cert.ReferenceIdeal.RefScore.combine = @Cert.KernelIdeal.KerDefs.combine := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefScore.run m ρ)

/-- From memories agreeing on the arguments both programs end at `combine` of the one score column. -/
theorem algebraic : Cert.algebraic_KernelIdeal_ReferenceIdeal := by
  intro m ρ m' ρ' _ hagree
  refine ⟨fun c => Cert.KernelIdeal.KerDefs.combine (Cert.KernelIdeal.KerArray.srcA m c) (Cert.KernelIdeal.KerArray.dstA m c)
      (Cert.KernelIdeal.KerDefs.rows (Cert.KernelIdeal.KerArray.featA m c) (Cert.KernelIdeal.KerArray.srcA m c))
      (Cert.KernelIdeal.KerArray.scoreK m c), Cert.KernelIdeal.KerArray.run m ρ, ?_⟩
  refine (θ_run Cert.ReferenceIdeal.defs _ _).mono (fun _ h c => ⟨(h c).1.trans ?_, (h c).2⟩)
    (Cert.ReferenceIdeal.RefScore.run m' ρ')
  obtain ⟨e0, e1, e2, e3, e4⟩ := hagree c
  rw [e0, e1, e2, e3, e4]
  unfold Cert.ReferenceIdeal.RefScore.out
  rw [Cert.ReferenceIdeal.RefScore.score_eq, rows_eq, combine_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
